-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.CosineSpec.lean ====
/-
  Pairwise cosine similarity of the rows of two arrays, over the extended reals.

  For x of A rows and y of B rows, each of K entries, the entry (p, q) of the result is the inner product of
  row p of x with row q of y, divided by the product of the two rows' clamped norms: the norm of a row is the
  square root of the sum of its squares, and it is clamped from below by a small positive number, so that it
  is never zero.

  Two arrangements of that quotient occur.  One divides the inner product by the product of the two norms.
  The other multiplies the inner product by the reciprocal of the first norm and then by the reciprocal of
  the second.  On the extended reals the two agree whenever neither norm is zero: division by a nonzero
  number is multiplication by its inverse, and the inverse of a product is the product of the inverses (also
  at the infinities, where an inverse is zero).  The clamp is what keeps a norm away from zero; nothing else
  about the entries is used, in particular not that they are finite.
-/
import Idealize.ShloMosaic.PureOps.Ideal.Laws
import Idealize.ShloMosaic.Lib.ValueIdx

noncomputable section

open scoped BigOperators

namespace Cert.Cosine

open Idealize.ShloMosaic Idealize.ShloMosaic.ValueIdx

/-! ## The two float words the computation spells -/

/-- The clamp: the single-precision number nearest 1e-8, which is 11258999 · 2⁻⁵⁰. -/
def eps : EReal := Ideal.ofBits .f32 0x322BCC77#32

/-- The clamp is a positive number. -/
theorem eps_pos : 0 < eps := by
  unfold eps
  simp [Ideal.ofBits, Ideal.ieee, -EReal.coe_mul]

/-- The word of the numerator of a reciprocal denotes the number one. -/
theorem one_word : Ideal.ofBits .f32 0x3F800000#32 = 1 := by
  simp [Ideal.ofBits, Ideal.ieee, -EReal.coe_mul]; norm_num

/-! ## Rows: inner products and clamped norms -/

variable {A B K : Nat}

/-- The inner product of row p of x with row q of y. -/
def rowDot (x : (⟨2, ![A, K]⟩ : Shape).Idx → EReal) (y : (⟨2, ![B, K]⟩ : Shape).Idx → EReal) (p : Fin A) (q : Fin B) : EReal :=
  ∑ k : Fin K, x (ix2 p k) * y (ix2 q k)

/-- The norm of row r of x, clamped from below. -/
def rowNorm (x : (⟨2, ![A, K]⟩ : Shape).Idx → EReal) (r : Fin A) : EReal :=
  max (Ideal.sqrt (∑ k : Fin K, x (ix2 r k) * x (ix2 r k))) eps

/-- A clamped norm is at least the clamp, so it is positive, -/
theorem rowNorm_pos (x : (⟨2, ![A, K]⟩ : Shape).Idx → EReal) (r : Fin A) : 0 < rowNorm x r :=
  lt_max_of_lt_right eps_pos

/-- and in particular not zero. -/
theorem rowNorm_ne_zero (x : (⟨2, ![A, K]⟩ : Shape).Idx → EReal) (r : Fin A) : rowNorm x r ≠ 0 :=
  (rowNorm_pos x r).ne'

/-- The cosine similarity of every row of x with every row of y: the inner product over the product of the norms. -/
def cosine (x : (⟨2, ![A, K]⟩ : Shape).Idx → EReal) (y : (⟨2, ![B, K]⟩ : Shape).Idx → EReal) :
    (⟨2, ![A, B]⟩ : Shape).Idx → EReal :=
  fun i => Ideal.div (rowDot x y (i 0) (i 1)) (rowNorm x (i 0) * rowNorm y (i 1))

/-! ## The law that joins the two arrangements -/

/-- Division by a number that is not zero is multiplication by its inverse. -/
theorem div_of_ne_zero (d n : EReal) (h : n ≠ 0) : Ideal.div d n = d * n⁻¹ := by
  rw [Ideal.div, if_neg h]

/-- Scaling by the reciprocal of one nonzero number and then of another is dividing by their product. -/
theorem scale_scale_eq_div (d n₁ n₂ : EReal) (h₁ : n₁ ≠ 0) (h₂ : n₂ ≠ 0) :
    d * Ideal.div 1 n₁ * Ideal.div 1 n₂ = Ideal.div d (n₁ * n₂) := by
  rw [div_of_ne_zero 1 n₁ h₁, div_of_ne_zero 1 n₂ h₂, div_of_ne_zero d _ (mul_ne_zero h₁ h₂), EReal.mul_inv, one_mul,
    one_mul, mul_assoc]

/-- The same at an entry: the inner product scaled by the two rows' reciprocal norms is the cosine similarity. -/
theorem scaled_eq_cosine (x : (⟨2, ![A, K]⟩ : Shape).Idx → EReal) (y : (⟨2, ![B, K]⟩ : Shape).Idx → EReal) (p : Fin A) (q : Fin B) :
    rowDot x y p q * Ideal.div 1 (rowNorm x p) * Ideal.div 1 (rowNorm y q) = cosine x y (ix2 p q) :=
  scale_scale_eq_div _ _ _ (rowNorm_ne_zero x p) (rowNorm_ne_zero y q)

end Cert.Cosine

end
-- ==== Proof.RefIsCosine.lean ====
/-
  The reference, read one operation at a time, is the cosine similarity of the rows of its two arguments.

  Its inner products are one contraction over the shared axis; each norm is the square root of a row's sum of
  squares, taken from zero, clamped from below; the two norms are laid out as a column and as a row, repeated
  to the full array, multiplied, and the inner products are divided by that product.  Following the index
  through the layout steps, entry (n, m) of the result reads row n of the first argument and row m of the
  second — which is the definition of the cosine similarity at (n, m).
-/
import proofs.«173940_j56435870269927_2_alg».proof.Proof.Gen.ReferenceIdeal.Read
import proofs.«173940_j56435870269927_2_alg».proof.Proof.CosineSpec

noncomputable section

open scoped BigOperators

namespace Cert.RefCosine

open Cert.ReferenceIdeal Cert.ReferenceIdeal.Read Idealize.ShloMosaic Idealize.ShloMosaic.ValueIdx

/-- The left factor of the contraction at (n, m) and k is the first argument at (n, k). -/
theorem lidx_eq (i : S8192x8192.Idx) (k : Fin 1024) : lidx_main_v0 i k = ix2 (i 0) k :=
  funext fun a => Fin.ext (by match a with | ⟨0, _⟩ => rfl | ⟨1, _⟩ => rfl)

/-- The right factor is the second argument at (m, k). -/
theorem ridx_eq (i : S8192x8192.Idx) (k : Fin 1024) : ridx_main_v0 i k = ix2 (i 1) k :=
  funext fun a => Fin.ext (by match a with | ⟨0, _⟩ => rfl | ⟨1, _⟩ => rfl)

/-- The first norm, as the array's entry (n, m) finds it through the column layout, sums row n. -/
theorem nidx0_eq (i : S8192x8192.Idx) (k : Fin 1024) :
    idx_main_call0_v1 (idx_main_v7 (idx_main_v9 i)) k = ix2 (i 0) k :=
  funext fun a => Fin.ext (by match a with | ⟨0, _⟩ => rfl | ⟨1, _⟩ => rfl)

/-- The second norm, found through the row layout, sums row m. -/
theorem nidx1_eq (i : S8192x8192.Idx) (k : Fin 1024) :
    idx_main_call1_v1 (idx_main_v8 (idx_main_v10 i)) k = ix2 (i 1) k :=
  funext fun a => Fin.ext (by match a with | ⟨0, _⟩ => rfl | ⟨1, _⟩ => rfl)

/-- The reference's result is the cosine similarity of the rows of its arguments. -/
theorem ref_eq (x0 x1 : S8192x1024.Idx → EReal) :
    val_main_v12 (F := Ideal) x0 x1 = Cosine.cosine x0 x1 := by
  funext i
  rw [val_main_v12_apply, val_main_v0_apply, val_main_v11_apply,
    val_main_v9_apply, val_main_v7_apply, val_main_v3_apply, val_main_v1_apply, val_main_call0_v1_apply,
    val_main_v2_apply, val_main_cst_apply, val_main_call0_cst_apply,
    val_main_v10_apply, val_main_v8_apply, val_main_v6_apply, val_main_v4_apply, val_main_call1_v1_apply,
    val_main_v5_apply, val_main_cst_0_apply, val_main_call1_cst_apply]
  simp only [val_main_call0_v0_apply, val_main_call1_v0_apply, lidx_eq, ridx_eq, nidx0_eq, nidx1_eq,
    Ideal.hostDivf_def, Ideal.mulf_def, Ideal.maximumf_def, Ideal.hostUnary_sqrt_def, Ideal.ofBits_def,
    Ideal.ofBits_zero_f32, zero_add]
  rfl

end Cert.RefCosine

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.KernelBlock.lean ====
/-
  What the kernel's body computes from one block of each operand, entry by entry.

  The body holds a block x of 1024 rows of the first operand and a block y of 512 rows of the second, every
  row whole (1024 entries).  It forms the 1024 × 512 array of inner products of rows of x with rows of y by
  one contraction over the shared axis; for each block, the column of reciprocals of its rows' clamped norms
  (the sum of the squares of a row, its square root, the clamp from below, one over that); it repeats the
  first column across the 512 columns, turns the second column into a row and repeats it down the 1024 rows,
  and multiplies the inner products by the one and then by the other.  So entry (p, q) is the inner product
  of row p of x with row q of y, times the reciprocal of the clamped norm of row p of x, times that of row q
  of y.  A change of float format is the identity on the extended reals, so the narrow format the blocks
  arrive in plays no part.
-/
import proofs.«173940_j56435870269927_2_alg».proof.Proof.Gen.KernelIdeal.Skeleton
import proofs.«173940_j56435870269927_2_alg».proof.Proof.CosineSpec
import proofs.«173940_j56435870269927_2_alg».proof.Proof.LibRowOps
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.CosineBlock

open Cert.KernelIdeal Cert.KernelIdeal.Gen Idealize.ShloMosaic Idealize.ShloMosaic.ValueIdx

/-! ## A length-a array viewed as a column -/

/-- A length-a array viewed as an a × 1 column holds, at (p, 0), its entry p: the two have the same
    row-major position. -/
theorem col_of_vec_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-! ## The column of reciprocal clamped norms of a block's rows -/

/-- For a block w of a rows: square every entry, sum each row from zero, view the sums as a column, take the
    square root, clamp from below, and divide one by the result.  At (r, 0) that is one over the clamped norm
    of row r. -/
theorem recip_norm_col {a k : ℕ} (w : FVec Ideal ⟨2, ![a, k]⟩ .bf16) (hb : FTy.bits .bf16 < FTy.bits .f32)
    (h1 : (⟨2, ![a, k]⟩ : Shape).Reduces [1] ⟨1, ![a]⟩) (hφ : FTy.f32 = FTy.f32 ∨ FTy.f32 = FTy.bf16)
    (hacc : (0x00000000#32 : BitVec 32) = 0x00000000#32) (h2 : (⟨1, ![a]⟩ : Shape).ShapeCasts ⟨2, ![a, 1]⟩)
    (r : Fin a) (u : Fin 1) :
    divf (broadcast ⟨2, ![a, 1]⟩ (Scalar.ofBits (F := Ideal) .f32 0x3F800000#32))
        (maximumf (sqrt (shapeCast ⟨2, ![a, 1]⟩
            (multiReduction .add [1] ⟨1, ![a]⟩ (mulf (extf .f32 w hb) (extf .f32 w hb)) 0x00000000#32 h1 hφ hacc) h2))
          (broadcast ⟨2, ![a, 1]⟩ (Scalar.ofBits (F := Ideal) .f32 0x322BCC77#32))) (ix2 r u)
      = Ideal.div 1 (Cosine.rowNorm w r) := by
  rw [divf_apply, broadcast_apply, maximumf_apply, broadcast_apply]
  show Ideal.div (Ideal.ofBits .f32 0x3F800000#32)
      (max (Ideal.sqrt (shapeCast ⟨2, ![a, 1]⟩
        (multiReduction .add [1] ⟨1, ![a]⟩ (mulf (extf .f32 w hb) (extf .f32 w hb)) 0x00000000#32 h1 hφ hacc) h2 (ix2 r u)))
        (Ideal.ofBits .f32 0x322BCC77#32)) = _
  rw [col_of_vec_apply, LibRowOps.rowsum, Cosine.one_word]
  rfl

/-! ## The block of inner products -/

/-- The contraction the body applies: axis 1 of the left block with axis 1 of the right block. -/
abbrev dims := dot_S1024x1024_S512x1024_S1024x512_1_1_0_0_n_n

theorem lhs_row (i : S1024x512.Idx) (c : dims.contr.Idx) : (dims.lhsIdx i c 0).val = (i 0).val := by
  unfold DotDims.lhsIdx
  rw [dif_neg (show ¬(0 : Fin S1024x1024.rank) ∈ dims.lhsBatch by decide),
    dif_pos (show (0 : Fin S1024x1024.rank) ∈ dims.lhsNonContracting by decide)]
  rfl

theorem lhs_col (i : S1024x512.Idx) (c : dims.contr.Idx) : (dims.lhsIdx i c 1).val = (c ⟨0, by decide⟩).val :=
  dims.lhsIdx_val_of_single rfl i c

theorem rhs_row (i : S1024x512.Idx) (c : dims.contr.Idx) : (dims.rhsIdx i c 0).val = (i 1).val := by
  unfold DotDims.rhsIdx
  rw [dif_neg (show ¬(0 : Fin S512x1024.rank) ∈ dims.rhsBatch by decide),
    dif_pos (show (0 : Fin S512x1024.rank) ∈ dims.rhsNonContracting by decide)]
  rfl

theorem rhs_col (i : S1024x512.Idx) (c : dims.contr.Idx) : (dims.rhsIdx i c 1).val = (c ⟨0, by decide⟩).val :=
  dims.rhsIdx_val_of_single rfl i c

/-- The contraction into the zero accumulator is, at (p, q), the inner product of row p of the left block with
    row q of the right block. -/
theorem inner_products (x : FVec Ideal S1024x1024 .bf16) (y : FVec Ideal S512x1024 .bf16) (p : Fin 1024) (q : Fin 512) :
    matmul dims none x y (constant (F := Ideal) S1024x512 .f32 0x00000000#32) (ix2 p q) = Cosine.rowDot x y p q := by
  simp only [matmul]
  rw [Ideal.matmul_constant_zero_apply, ← Equiv.sum_comp (contrEquiv1 dims 1024 rfl rfl).symm]
  unfold Cosine.rowDot
  refine Finset.sum_congr rfl fun k _ => ?_
  have hk := contrEquiv1_symm_val dims 1024 rfl rfl k
  have el : dims.lhsIdx (ix2 p q) ((contrEquiv1 dims 1024 rfl rfl).symm k) = ix2 p k := funext fun a => Fin.ext (by
    match a with
    | ⟨0, _⟩ => exact lhs_row _ _
    | ⟨1, _⟩ => exact (lhs_col _ _).trans hk)
  have er : dims.rhsIdx (ix2 p q) ((contrEquiv1 dims 1024 rfl rfl).symm k) = ix2 q k := funext fun a => Fin.ext (by
    match a with
    | ⟨0, _⟩ => exact rhs_row _ _
    | ⟨1, _⟩ => exact (rhs_col _ _).trans hk)
  rw [el, er]

/-! ## The body's value at an entry -/

/-- Entry (p, q) of what the body stores: the inner product of row p of x with row q of y, scaled by the
    reciprocals of the two rows' clamped norms. -/
theorem block_value (x : FVec Ideal S1024x1024 .bf16) (y : FVec Ideal S512x1024 .bf16) (p : Fin 1024) (q : Fin 512) :
    k0_pay1 (F := Ideal) x y (ix2 p q)
      = Cosine.rowDot x y p q * Ideal.div 1 (Cosine.rowNorm x p) * Ideal.div 1 (Cosine.rowNorm y q) := by
  unfold k0_pay1
  simp only [shapeCast_self]
  rw [mulf_apply, mulf_apply, inner_products, LibRowOps.col_bcast_apply, recip_norm_col,
    broadcastTo_1b_ab_apply, transpose_ix2_apply, recip_norm_col]

/-! ## A block's entry as an entry of the whole result -/

/-- If the rows of x are rows of X (row p of x is row P p of X) and the rows of y are rows of Y, then entry (p, q)
    of what the body stores is the cosine similarity of X and Y at (P p, Q q): the inner product and the two
    norms only read those rows, and scaling by the two reciprocal norms is dividing by their product. -/
theorem block_is_cosine (X Y : (⟨2, ![8192, 1024]⟩ : Shape).Idx → EReal)
    (x : FVec Ideal S1024x1024 .bf16) (y : FVec Ideal S512x1024 .bf16)
    (P : Fin 1024 → Fin 8192) (Q : Fin 512 → Fin 8192)
    (hx : ∀ (p : Fin 1024) (k : Fin 1024), x (ix2 p k) = X (ix2 (P p) k))
    (hy : ∀ (q : Fin 512) (k : Fin 1024), y (ix2 q k) = Y (ix2 (Q q) k)) (p : Fin 1024) (q : Fin 512) :
    k0_pay1 (F := Ideal) x y (ix2 p q) = Cosine.cosine X Y (ix2 (P p) (Q q)) := by
  rw [block_value, ← Cosine.scaled_eq_cosine]
  unfold Cosine.rowDot Cosine.rowNorm
  simp only [hx, hy]

end Cert.CosineBlock

end
-- ==== Proof.KernelArray.lean ====
/-
  From blocks to the whole array: after the kernel has run, its result is the cosine similarity of the rows of
  its two arguments.

  The grid has 8 × 16 points.  At point (i, j) the body is given rows 1024·i … 1024·i + 1023 of the first
  operand and rows 512·j … 512·j + 511 of the second (all 1024 columns of each), and what it stores is written
  back to the block of the result with rows 1024·i … and columns 512·j ….  Before the region the two arguments
  are only changed in float format, which is the identity on the extended reals, so the operands the blocks are
  cut from are the arguments themselves.  Entry (p, q) of a block is therefore the cosine similarity at
  (1024·i + p, 512·j + q) of the arguments, that is, the block written back at a point is that block of ONE
  array; and every entry (r, s) of the result lies in the block of the point (r / 1024, s / 512).  Hence the
  result is that array.
-/
import proofs.«173940_j56435870269927_2_alg».proof.Proof.Gen.KernelIdeal.Value
import proofs.«173940_j56435870269927_2_alg».proof.Proof.KernelBlock

noncomputable section

namespace Cert.CosineArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The operands as the region finds them -/

/-- The first operand is the first argument: the one operation before the region that writes it only changes the
    float format. -/
theorem V_main_v0 (c : Dev nD) :
    (V m c main_v0 : S8192x1024.Idx → EReal) = (m ((c : Thread nD τ).loc main_arg0) : S8192x1024.Idx → EReal) := by
  unfold V; after_results; rfl

/-- The second operand is the second argument, likewise. -/
theorem V_main_v1 (c : Dev nD) :
    (V m c main_v1 : S8192x1024.Idx → EReal) = (m ((c : Thread nD τ).loc main_arg1) : S8192x1024.Idx → EReal) := by
  unfold V; after_results; rfl

/-! ## Which blocks a point is given -/

/-- Decided over the 128 points: the first operand's block has the result block's row index and column index 0,
    the second operand's block has the result block's column index as its row index and column index 0, and the
    result's block indices are below 8 and 16. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 15 :=
  (by decide +kernel : ∀ t : Fin grid0.N, _)

/-- Every block of the result is some point's. -/
theorem idx_onto : ∀ (q0 : Fin 8) (q1 : Fin 16), ∃ t : Fin cfg0.N, win0_2.index t = ![q0.val, q1.val] :=
  (by decide +kernel : ∀ (q0 : Fin 8) (q1 : Fin 16), ∃ t : Fin grid0.N, win0_2.index t = ![q0.val, q1.val])

/-! ## What a point writes back -/

/-- What point t writes back is block t of the cosine similarity of the arguments. -/
theorem flushed_eq (c : Dev nD) (t : Fin cfg0.N) :
    (dats m 0 c).flushed 2 t = ((cfg0.win 2).blk t).view.read (Elt Ideal)
      (Cosine.cosine (m ((c : Thread nD τ).loc main_arg0) : S8192x1024.Idx → EReal) (m ((c : Thread nD τ).loc main_arg1) : S8192x1024.Idx → EReal)) := by
  rw [flushed2]
  unfold out0_2
  rw [View.canon_unit_zero zero_offsets]
  simp only [View.ld_unit_zero (S := S1024x1024) zero_offsets, View.ld_unit_zero (S := S512x1024) zero_offsets]
  obtain ⟨e0, e1, e2, e3, b0, b1⟩ := idx_facts t
  funext j
  show k0_pay1 (iblk m c 0 t) (iblk m c 1 t) j = Cosine.cosine _ _ (((cfg0.win 2).blk t).view.emb j)
  -- the rows of the two blocks inside the arguments
  have hP : ∀ p : Fin 1024, win0_2.index t (0 : Fin 2) * 1024 + p.val < 8192 := fun p => by have := p.isLt; omega
  have hQ : ∀ q : Fin 512, win0_2.index t (1 : Fin 2) * 512 + q.val < 8192 := fun q => by have := q.isLt; omega
  refine (congrArg (k0_pay1 (iblk m c 0 t) (iblk m c 1 t)) (eq_ix2 j)).trans ?_
  refine (CosineBlock.block_is_cosine (m ((c : Thread nD τ).loc main_arg0)) (m ((c : Thread nD τ).loc main_arg1))
    (iblk m c 0 t) (iblk m c 1 t) (fun p => ⟨_, hP p⟩) (fun q => ⟨_, hQ q⟩) ?_ ?_ (j 0) (j 1)).trans ?_
  · intro p k
    show V m c main_v0 (((cfg0.win 0).blk t).view.emb (ix2 p k)) = _
    rw [V_main_v0]
    refine congrArg _ (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 1024 + 1 * k.val = k.val; omega
  · intro q k
    show V m c main_v1 (((cfg0.win 1).blk t).view.emb (ix2 q k)) = _
    rw [V_main_v1]
    refine congrArg _ (funext fun a => Fin.ext ?_)
    match a with
    | ⟨0, _⟩ => show win0_1.index t (0 : Fin 2) * 512 + 1 * q.val = win0_2.index t (1 : Fin 2) * 512 + q.val; omega
    | ⟨1, _⟩ => show win0_1.index t (1 : Fin 2) * 1024 + 1 * k.val = k.val; omega
  · refine congrArg _ (funext fun a => Fin.ext ?_)
    match a with
    | ⟨0, _⟩ => show win0_2.index t (0 : Fin 2) * 1024 + (j 0).val = win0_2.index t (0 : Fin 2) * 1024 + 1 * (j 0).val; omega
    | ⟨1, _⟩ => show win0_2.index t (1 : Fin 2) * 512 + (j 1).val = win0_2.index t (1 : Fin 2) * 512 + 1 * (j 1).val; omega

/-! ## The blocks cover the result -/

/-- An entry of the result is in point t's block iff each coordinate is in the block's range on its axis. -/
theorem mem_blk (t : Fin cfg0.N) (i : S8192x8192.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Every entry (r, s) of the result is in the block of the point with block indices (r / 1024, s / 512), which
    writes back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-! ## The array after the run, and the run -/

/-- After the run the result array is the cosine similarity of the rows of the two arguments. -/
theorem final (c : Dev nD) :
    (dats m 0 c).arrAt 2 cfg0.N
      = Cosine.cosine (m ((c : Thread nD τ).loc main_arg0) : S8192x1024.Idx → EReal) (m ((c : Thread nD τ).loc main_arg1) : S8192x1024.Idx → EReal) :=
  (dats m 0 c).arrAt_eq_of_cover 2 _ (fun t _ => flushed_eq m c t) covered

/-- The kernel's run: every weakly fair execution terminates with the result at the cosine similarity of the
    arguments, and the arguments unchanged. -/
theorem run : θ_run defs (onTc (τ := τ) (main (F := Ideal))) ⟨m, fun _ => 0, ρ⟩ fun r => ∀ c : Dev nD,
      r.2.mem ((c : Thread nD τ).loc main_v2)
        = Cosine.cosine (m ((c : Thread nD τ).loc main_arg0) : S8192x1024.Idx → EReal) (m ((c : Thread nD τ).loc main_arg1) : S8192x1024.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.CosineArray

end
-- ==== Proof.lean ====
/- Pairwise cosine similarity of the rows of two 8192 × 1024 arrays: a tiled kernel against a plain reference,
   equal over the extended reals.

   The reference forms all inner products of a row of the first argument with a row of the second, and divides
   each by the product of the two rows' norms, a norm being the square root of the row's sum of squares, clamped
   from below by a small positive number.  The kernel works on an 8 × 16 grid of blocks of the result; at each
   block it forms the inner products of the 1024 rows of the first argument with the 512 rows of the second that
   the block needs, and multiplies them by the reciprocal of the first row's clamped norm and then by the
   reciprocal of the second's.  The kernel's narrower float format is the identity on the extended reals.

   The two agree entry by entry: dividing by a product of two numbers, neither zero, is multiplying by the
   inverse of the one and then of the other, and a clamped norm is at least the (positive) clamp, so it is not
   zero.  That law holds for all extended reals, so the entries' finiteness is not used.

   CosineSpec states the function and proves the law; RefIsCosine reads the reference as that function;
   KernelBlock reads the kernel's body at an entry of a block; KernelArray assembles the blocks into the whole
   array and restates the kernel's run.  Below, the three frames (each program terminates, faults nowhere and
   leaves its arguments as they were), the idealization's ledger (empty), and the equality of the two results. -/
import proofs.«173940_j56435870269927_2_alg».proof.Defs
import proofs.«173940_j56435870269927_2_alg».proof.Proof.Gen.Kernel
import proofs.«173940_j56435870269927_2_alg».proof.Proof.Gen.Kernel.Skeleton
import proofs.«173940_j56435870269927_2_alg».proof.Proof.Gen.Kernel.Launch
import proofs.«173940_j56435870269927_2_alg».proof.Proof.Gen.Kernel.Points
import proofs.«173940_j56435870269927_2_alg».proof.Proof.Gen.Kernel.Frame
import proofs.«173940_j56435870269927_2_alg».proof.Proof.Gen.KernelIdeal
import proofs.«173940_j56435870269927_2_alg».proof.Proof.Gen.KernelIdeal.Skeleton
import proofs.«173940_j56435870269927_2_alg».proof.Proof.Gen.KernelIdeal.Launch
import proofs.«173940_j56435870269927_2_alg».proof.Proof.Gen.KernelIdeal.Points
import proofs.«173940_j56435870269927_2_alg».proof.Proof.Gen.KernelIdeal.Frame
import proofs.«173940_j56435870269927_2_alg».proof.Proof.Gen.ReferenceIdeal
import proofs.«173940_j56435870269927_2_alg».proof.Proof.Gen.Pre_finite_inputs
import proofs.«173940_j56435870269927_2_alg».proof.Proof.Gen.KernelIdeal.Value
import proofs.«173940_j56435870269927_2_alg».proof.Proof.Gen.ReferenceIdeal.Run
import proofs.«173940_j56435870269927_2_alg».proof.Proof.Gen.ReferenceIdeal.Read
import proofs.«173940_j56435870269927_2_alg».proof.Proof.CosineSpec
import proofs.«173940_j56435870269927_2_alg».proof.Proof.RefIsCosine
import proofs.«173940_j56435870269927_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's are both the
    cosine similarity of the arguments' rows. -/
theorem algebraic : Cert.algebraic_KernelIdeal_ReferenceIdeal := by
  intro m ρ m' ρ' _ hagree
  refine ⟨_, Cert.CosineArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefCosine.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
